-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 26
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S50000x128, .f32⟩
  | .hbm, ⟨21, _⟩ => ⟨S1600000x1, .i32⟩
  | .hbm, ⟨22, _⟩ => ⟨S50000x128, .f32⟩
  | .hbm, ⟨23, _⟩ => ⟨S1x128, .f32⟩
  | .hbm, ⟨24, _⟩ => ⟨S1x128, .f32⟩
  | .hbm, ⟨25, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S50000x128, .f32⟩
  | .hbm, ⟨21, _⟩ => ⟨S1600000x1, .i32⟩
  | .hbm, ⟨22, _⟩ => ⟨S50000x128, .f32⟩
  | .hbm, ⟨23, _⟩ => ⟨S_, .f32⟩
  | .hbm, ⟨24, _⟩ => ⟨S50000x128, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  One graph-isomorphism layer over the extended reals, row by row.

  A row of node features `x a` is mixed with the sum of its neighbours' rows `agg a` as
  `h a l = (1 + eps) * x a l + agg a l` (the factor `1 + eps` kept as its 32-bit float word), and the mixed row goes
  through a perceptron of two layers of width 128 with a rectifier between them:
  `out a j = (sum over k of max (sum over l of h a l * W1 l k + b1 k) 0 * W2 k j) + b2 j`.
  Row `a` of the result depends on row `a` of `x` and of `agg` only: the same rows give the same result, whatever
  the heights of the two arrays the rows sit in (`layer_rows`). That is why a block of rows can be computed by itself.
-/
import Idealize.ShloMosaic.PureOps.Ideal
import Idealize.ShloMosaic.Lib.ValueIdx

noncomputable section

namespace Cert.GinSpec

open Idealize.ShloMosaic Idealize.ShloMosaic.ValueIdx

/-- Row `a` of the mixed features: `(1 + eps) * x + agg`, entry by entry. -/
def mixRow {A : ℕ} (x agg : (⟨2, ![A, 128]⟩ : Shape).Idx → EReal) (a : Fin A) (l : Fin 128) : EReal :=
  Ideal.ofBits .f32 0x3F8020C5#32 * x (ix2 a l) + agg (ix2 a l)

/-- The two-layer perceptron on one row `h`, at output column `j`. -/
def mlpRow (h : Fin 128 → EReal) (W1 W2 : (⟨2, ![128, 128]⟩ : Shape).Idx → EReal) (b1 b2 : Fin 128 → EReal)
    (j : Fin 128) : EReal :=
  (∑ k : Fin 128, max ((∑ l : Fin 128, h l * W1 (ix2 l k)) + b1 k) (Ideal.ofBits .f32 0x00000000#32) * W2 (ix2 k j)) + b2 j

/-- The layer on an array of `A` rows. -/
def layer {A : ℕ} (x agg : (⟨2, ![A, 128]⟩ : Shape).Idx → EReal) (W1 W2 : (⟨2, ![128, 128]⟩ : Shape).Idx → EReal)
    (b1 b2 : Fin 128 → EReal) : (⟨2, ![A, 128]⟩ : Shape).Idx → EReal :=
  fun i => mlpRow (mixRow x agg (i 0)) W1 W2 b1 b2 (i 1)

/-- The layer at row `a`, column `q`. -/
theorem layer_ix2 {A : ℕ} (x agg : (⟨2, ![A, 128]⟩ : Shape).Idx → EReal) (W1 W2 : (⟨2, ![128, 128]⟩ : Shape).Idx → EReal)
    (b1 b2 : Fin 128 → EReal) (a : Fin A) (q : Fin 128) :
    layer x agg W1 W2 b1 b2 (ix2 a q) = mlpRow (mixRow x agg a) W1 W2 b1 b2 q := rfl

/-- Two arrays that hold the same row of `x` and of `agg`, at row `a` of the one and row `a'` of the other, give the
    same row of the layer there. -/
theorem layer_rows {A B : ℕ} (x agg : (⟨2, ![A, 128]⟩ : Shape).Idx → EReal) (x' agg' : (⟨2, ![B, 128]⟩ : Shape).Idx → EReal)
    (W1 W2 : (⟨2, ![128, 128]⟩ : Shape).Idx → EReal) (b1 b2 : Fin 128 → EReal) (a : Fin A) (a' : Fin B) (q : Fin 128)
    (hx : ∀ l : Fin 128, x (ix2 a l) = x' (ix2 a' l)) (hagg : ∀ l : Fin 128, agg (ix2 a l) = agg' (ix2 a' l)) :
    layer x agg W1 W2 b1 b2 (ix2 a q) = layer x' agg' W1 W2 b1 b2 (ix2 a' q) := by
  rw [layer_ix2, layer_ix2]
  have h : mixRow x agg a = mixRow x' agg' a' := funext fun l => by unfold mixRow; rw [hx l, hagg l]
  rw [h]

end Cert.GinSpec

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.KernelRow.lean ====
/-
  What the kernel body stores, read at row `p` and column `q` of its block of 5000 rows.

  The body mixes its block of `x` with its block of `agg`, multiplies by `W1` (a product of a [5000,128] by a
  [128,128] matrix into a zero accumulator: at `(p, k)` the sum over `l` of `h (p, l) * W1 (l, k)`), adds the bias row,
  takes the maximum with zero, multiplies by `W2` and adds the second bias row. The roundings to the 16-bit format on the
  way into the two products are the identity on the extended reals. So the stored block is the layer of `Spec` on the
  5000 rows of the block.
-/
import proofs.«111403_j17635135718112_1_alg».proof.Proof.Gen.KernelIdeal.Skeleton
import proofs.«111403_j17635135718112_1_alg».proof.Proof.Spec
import proofs.«111403_j17635135718112_1_alg».proof.Proof.LibColumnBlocks
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx

/-- The product's left operand is read in the output's row. -/
theorem lhs_row (j : S5000x128.Idx) (k : dot_S5000x128_S128x128_S5000x128_1_0_0_1_n_n.contr.Idx) : (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The product's right operand is read in the output's column. -/
theorem rhs_col (j : S5000x128.Idx) (k : dot_S5000x128_S128x128_S5000x128_1_0_0_1_n_n.contr.Idx) : (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The body's matrix product into a zero accumulator, at `(p, q)`: the sum over `k` of `lhs (p, k) * rhs (k, q)`. -/
theorem product_apply {φ₁ φ₂ : FTy} (lhs : FVec Ideal S5000x128 φ₁) (rhs : FVec Ideal S128x128 φ₂) (p : Fin 5000) (q : Fin 128) :
    matmul dot_S5000x128_S128x128_S5000x128_1_0_0_1_n_n none lhs rhs (constant S5000x128 .f32 0x00000000#32) (ix2 p q) = ∑ k : Fin 128, lhs (ix2 p k) * rhs (ix2 k q) :=
  Cert.LibColumnBlocks.matmul_zero_apply dot_S5000x128_S128x128_S5000x128_1_0_0_1_n_n rfl rfl rfl rfl lhs_row rhs_col lhs rhs p q none

/-- A bias row [1,128] spread over the 5000 rows, at `(p, q)`: the bias at `q`. -/
theorem bias_apply (b : Vec Ideal S1x128 .f32) (p : Fin 5000) (q : Fin 128) :
    broadcastTo S5000x128 b broadcasts_S1x128_S5000x128 (ix2 p q) = b (ix2 (0 : Fin 1) q) :=
  broadcastTo_1b_ab_apply b broadcasts_S1x128_S5000x128 p q

/-- The stored block at `(p, q)` is the layer on the block's rows. -/
theorem stored_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k0_pay1 (F := Ideal) x0 x1 x2 x3 x4 x5 (ix2 p q)
      = Cert.GinSpec.layer (A := 5000) x0 x1 x2 x4 (fun k => x3 (ix2 (0 : Fin 1) k)) (fun k => x5 (ix2 (0 : Fin 1) k)) (ix2 p q) := by
  unfold k0_pay1
  simp only [addf_apply, product_apply, truncf_apply, maximumf_apply, mulf_apply, broadcast_apply, shapeCast_self]
  rw [bias_apply x5 p q]
  simp only [bias_apply x3 p]
  rfl

end Cert.KernelIdeal.Row

end
-- ==== Proof.HostSide.lean ====
/-
  What the kernel's region finds in the three arrays the host operations before it wrote.

  Before the region the program computes the neighbour sums `agg` from `x` and the edge list by the very operations the
  reference applies (two slices of the edge list, the wrap of negative indices, a gather of rows, a scatter-add into
  zeros), and reshapes the two biases from [128] to [1,128]. The neighbour sums are therefore the reference's own term of
  the same arguments, never opened; a reshaped bias at `(0, k)` is the bias at `k`.
-/
import proofs.«111403_j17635135718112_1_alg».proof.Proof.Gen.KernelIdeal.Frame
import proofs.«111403_j17635135718112_1_alg».proof.Proof.Gen.ReferenceIdeal.Read
import Idealize.ShloMosaic.Lib.ValueIdx
import Idealize.ShloMosaic.Lib.ValueLayout
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-- The neighbour sums the region finds are the reference's term of `x` and the edge list. -/
theorem agg_eq (c : Dev nD) :
    (V m c main_v13 : S50000x128.Idx → EReal)
      = Cert.ReferenceIdeal.Read.val_main_v13 (F := Ideal) (m ((c : Thread nD τ).loc main_arg0)) (m ((c : Thread nD τ).loc main_arg1)) := by
  dsimp only [Gen.V, Gen.hostOps0]
  after_results
  rfl

/-- The first bias as the region finds it: the argument reshaped to one row. -/
theorem bias1_eq (c : Dev nD) :
    (V m c main_v14 : S1x128.Idx → EReal) = shapeCast S1x128 (m ((c : Thread nD τ).loc main_arg3)) shapeCasts_S128_S1x128 := by
  dsimp only [Gen.V, Gen.hostOps0]
  after_results
  rfl

/-- The second bias as the region finds it. -/
theorem bias2_eq (c : Dev nD) :
    (V m c main_v15 : S1x128.Idx → EReal) = shapeCast S1x128 (m ((c : Thread nD τ).loc main_arg5)) shapeCasts_S128_S1x128 := by
  dsimp only [Gen.V, Gen.hostOps0]
  after_results
  rfl

/-- The first bias at `(0, k)`. -/
theorem bias1_apply (c : Dev nD) (k : Fin 128) :
    (V m c main_v14 : S1x128.Idx → EReal) (ix2 (0 : Fin 1) k) = (m ((c : Thread nD τ).loc main_arg3) : S128.Idx → EReal) (ix1 k) := by
  rw [bias1_eq, shapeCast_a_1a_apply]

/-- The second bias at `(0, k)`. -/
theorem bias2_apply (c : Dev nD) (k : Fin 128) :
    (V m c main_v15 : S1x128.Idx → EReal) (ix2 (0 : Fin 1) k) = (m ((c : Thread nD τ).loc main_arg5) : S128.Idx → EReal) (ix1 k) := by
  rw [bias2_eq, shapeCast_a_1a_apply]

end Cert.KernelIdeal.HostSide

end
-- ==== Proof.Blocks.lean ====
/-
  From the ten blocks to the whole result array.

  The grid has ten points; point `t` works on rows `5000 t … 5000 t + 4999` of `x`, of the neighbour sums and of the
  result, and on the whole of the two weight matrices and the two bias rows. Since a row of the layer depends on the same
  row of `x` and of the neighbour sums only, what point `t` stores is block `t` of the layer computed on all 50000 rows
  (`stored_is_layer`, `written_eq`). Row `r` lies in block `r / 5000`, so the ten blocks cover the array (`covered`) and the
  array ends holding the layer (`array_eq`); the arrays the region reads are the arguments, the neighbour sums the
  reference's own term, a reshaped bias at `(0, k)` the bias at `k` (`found_eq`).
-/
import proofs.«111403_j17635135718112_1_alg».proof.Proof.Gen.KernelIdeal.Value
import proofs.«111403_j17635135718112_1_alg».proof.Proof.KernelRow
import proofs.«111403_j17635135718112_1_alg».proof.Proof.HostSide
import Idealize.ShloMosaic.Lib.Pipeline.Value
import Idealize.ShloMosaic.Lib.Tactic

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-- A stored block at index `y` is the layer on all rows at index `i`, when `i` is `y` moved down by `T` blocks and the
    block's rows of `x` and of the neighbour sums are the arrays' rows at the same distance. -/
theorem stored_is_layer (X AGG : S50000x128.Idx → EReal) (W1 W2 : S128x128.Idx → EReal) (B1 B2 : S1x128.Idx → EReal)
    (x0 x1 : Vec Ideal S5000x128 .f32) (x2 : Vec Ideal S128x128 .f32) (x3 : Vec Ideal S1x128 .f32)
    (x4 : Vec Ideal S128x128 .f32) (x5 : Vec Ideal S1x128 .f32)
    (T : ℕ) (y : S5000x128.Idx) (i : S50000x128.Idx)
    (hi0 : (i 0).val = T * 5000 + (y 0).val) (hi1 : (i 1).val = (y 1).val)
    (h0 : ∀ (y' : S5000x128.Idx) (i' : S50000x128.Idx), (i' 0).val = T * 5000 + (y' 0).val → (i' 1).val = (y' 1).val → x0 y' = X i')
    (h1 : ∀ (y' : S5000x128.Idx) (i' : S50000x128.Idx), (i' 0).val = T * 5000 + (y' 0).val → (i' 1).val = (y' 1).val → x1 y' = AGG i')
    (h2 : x2 = W1) (h3 : x3 = B1) (h4 : x4 = W2) (h5 : x5 = B2) :
    k0_pay1 (F := Ideal) x0 x1 x2 x3 x4 x5 y
      = Cert.GinSpec.layer (A := 50000) X AGG W1 W2 (fun k => B1 (ix2 (0 : Fin 1) k)) (fun k => B2 (ix2 (0 : Fin 1) k)) i := by
  subst h2 h3 h4 h5
  obtain ⟨p, q, rfl⟩ : ∃ (p : Fin 5000) (q : Fin 128), y = ix2 p q := ⟨y 0, y 1, eq_ix2 y⟩
  obtain ⟨a, q', rfl⟩ : ∃ (a : Fin 50000) (q' : Fin 128), i = ix2 a q' := ⟨i 0, i 1, eq_ix2 i⟩
  have hq : q' = q := Fin.ext hi1
  subst hq
  rw [Cert.KernelIdeal.Row.stored_apply]
  refine Cert.GinSpec.layer_rows x0 x1 X AGG x2 x4 _ _ p a q' (fun l => ?_) (fun l => ?_)
  · exact h0 (ix2 p l) (ix2 a l) hi0 rfl
  · exact h1 (ix2 p l) (ix2 a l) hi0 rfl

variable (m : (ℓ : Loc nD τ sig) → Buf (Elt Ideal) ℓ) (ρ : Dev nD → PrngReg)

theorem zero_offsets : (![0, 0] : Fin 2 → Nat) = fun _ => 0 := funext fun a => by fin_cases a <;> rfl

/-- The layer on the arrays as the region finds them. -/
def found (c : Dev nD) : S50000x128.Idx → EReal :=
  Cert.GinSpec.layer (A := 50000) (V m c main_arg0) (V m c main_v13) (V m c main_arg2) (V m c main_arg4)
    (fun k => (V m c main_v14 : S1x128.Idx → EReal) (ix2 (0 : Fin 1) k)) (fun k => (V m c main_v15 : S1x128.Idx → EReal) (ix2 (0 : Fin 1) k))

/-- The printed index maps over the ten points: the blocks of `x` and of the neighbour sums move with the result's block,
    along the rows only; the weights and the biases stay whole; the result's block at point `t` is block `t`. -/
theorem index_maps : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 9 :=
  (by decide +kernel : ∀ t : Fin grid0.N, _)

/-- Every block of rows is some point's. -/
theorem index_onto : ∀ q0 : Fin 10, ∃ t : Fin cfg0.N, win0_6.index t = ![q0.val, 0] :=
  (by decide +kernel : ∀ q0 : Fin 10, ∃ t : Fin grid0.N, win0_6.index t = ![q0.val, 0])

/-- Any array of 50000 rows read through the block of `x` at point `t`: entry `y` of the block is the array's entry in
    the same column, `5000 t` rows further down. -/
theorem x_block_rows (t : Fin cfg0.N) (A : S50000x128.Idx → EReal) (y : S5000x128.Idx) (i : S50000x128.Idx)
    (hr : (i 0).val = win0_6.index t (0 : Fin 2) * 5000 + (y 0).val) (hc : (i 1).val = (y 1).val) :
    ((cfg0.win 0).blk t).view.read (Elt Ideal) A y = A i := by
  obtain ⟨e00, e01, -⟩ := index_maps t
  show A (((cfg0.win 0).blk t).view.emb y) = A i
  refine congrArg A (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The same through the block of the neighbour sums at point `t`. -/
theorem agg_block_rows (t : Fin cfg0.N) (A : S50000x128.Idx → EReal) (y : S5000x128.Idx) (i : S50000x128.Idx)
    (hr : (i 0).val = win0_6.index t (0 : Fin 2) * 5000 + (y 0).val) (hc : (i 1).val = (y 1).val) :
    ((cfg0.win 1).blk t).view.read (Elt Ideal) A y = A i := by
  obtain ⟨-, -, e10, e11, -⟩ := index_maps t
  show A (((cfg0.win 1).blk t).view.emb y) = A i
  refine congrArg A (funext fun a => Fin.ext ?_)
  match a with
  | ⟨0, _⟩ => show win0_1.index t (0 : Fin 2) * 5000 + 1 * (y 0).val = (i 0).val; omega
  | ⟨1, _⟩ => show win0_1.index t (1 : Fin 2) * 128 + 1 * (y 1).val = (i 1).val; omega

/-- What point `t` writes back is block `t` of the layer on the arrays as the region finds them. -/
theorem written_eq (c : Dev nD) (t : Fin cfg0.N) :
    (dats m 0 c).flushed 6 t = ((cfg0.win 6).blk t).view.read (Elt Ideal) (found m c) := by
  rw [flushed6]
  unfold out0_6
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41, e50, e51, e61, -⟩ := index_maps t
  funext j
  show k0_pay1 (F := Ideal) (iblk m c 0 t) (iblk m c 1 t) (iblk m c 2 t) (iblk m c 3 t) (iblk m c 4 t) (iblk m c 5 t) j
    = found m c (((cfg0.win 6).blk t).view.emb j)
  unfold found
  refine stored_is_layer (V m c main_arg0) (V m c main_v13) (V m c main_arg2) (V m c main_arg4) (V m c main_v14) (V m c main_v15)
    (iblk m c 0 t) (iblk m c 1 t) (iblk m c 2 t) (iblk m c 3 t) (iblk m c 4 t) (iblk m c 5 t)
    (win0_6.index t (0 : Fin 2)) j (((cfg0.win 6).blk t).view.emb j) ?_ ?_ ?_ ?_ ?_ ?_ ?_ ?_
  · show win0_6.index t (0 : Fin 2) * 5000 + 1 * (j 0).val = win0_6.index t (0 : Fin 2) * 5000 + (j 0).val
    omega
  · show win0_6.index t (1 : Fin 2) * 128 + 1 * (j 1).val = (j 1).val
    omega
  · intro y' i' hr hc
    unfold iblk
    exact x_block_rows t (V m c main_arg0) y' i' hr hc
  · intro y' i' hr hc
    unfold iblk
    exact agg_block_rows t (V m c main_v13) y' i' hr hc
  · funext y'
    show V m c main_arg2 (((cfg0.win 2).blk t).view.emb y') = V m c main_arg2 y'
    refine congrArg (V m c main_arg2) (funext fun a => Fin.ext ?_)
    match a with
    | ⟨0, _⟩ => show win0_2.index t (0 : Fin 2) * 128 + 1 * (y' 0).val = (y' 0).val; omega
    | ⟨1, _⟩ => show win0_2.index t (1 : Fin 2) * 128 + 1 * (y' 1).val = (y' 1).val; omega
  · funext y'
    show V m c main_v14 (((cfg0.win 3).blk t).view.emb y') = V m c main_v14 y'
    refine congrArg (V m c main_v14) (funext fun a => Fin.ext ?_)
    match a with
    | ⟨0, _⟩ => show win0_3.index t (0 : Fin 2) * 1 + 1 * (y' 0).val = (y' 0).val; omega
    | ⟨1, _⟩ => show win0_3.index t (1 : Fin 2) * 128 + 1 * (y' 1).val = (y' 1).val; omega
  · funext y'
    show V m c main_arg4 (((cfg0.win 4).blk t).view.emb y') = V m c main_arg4 y'
    refine congrArg (V m c main_arg4) (funext fun a => Fin.ext ?_)
    match a with
    | ⟨0, _⟩ => show win0_4.index t (0 : Fin 2) * 128 + 1 * (y' 0).val = (y' 0).val; omega
    | ⟨1, _⟩ => show win0_4.index t (1 : Fin 2) * 128 + 1 * (y' 1).val = (y' 1).val; omega
  · funext y'
    show V m c main_v15 (((cfg0.win 5).blk t).view.emb y') = V m c main_v15 y'
    refine congrArg (V m c main_v15) (funext fun a => Fin.ext ?_)
    match a with
    | ⟨0, _⟩ => show win0_5.index t (0 : Fin 2) * 1 + 1 * (y' 0).val = (y' 0).val; omega
    | ⟨1, _⟩ => show win0_5.index t (1 : Fin 2) * 128 + 1 * (y' 1).val = (y' 1).val; omega

/-- An index of the result array is in point `t`'s block iff each coordinate is in the block's range on its axis. -/
theorem mem_block (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v16).slice (win0_6.rect t)).set ↔ _
  rw [View.set_slice_whole, Rect.mem_set_unit]
  exact Iff.rfl

/-- Row `r` is in the block of point `r / 5000`: the ten blocks cover the result array. -/
theorem covered (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := index_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- So the result array ends holding the layer on the arrays as the region finds them. -/
theorem array_eq (c : Dev nD) : (dats m 0 c).arrAt 6 cfg0.N = found m c :=
  (dats m 0 c).arrAt_eq_of_cover 6 (found m c) (fun t _ => written_eq m c t) covered

/-- The layer on the arguments: the neighbour sums are the reference's term of `x` and the edge list. -/
def result (c : Dev nD) : S50000x128.Idx → EReal :=
  Cert.GinSpec.layer (A := 50000) (m ((c : Thread nD τ).loc main_arg0))
    (Cert.ReferenceIdeal.Read.val_main_v13 (F := Ideal) (m ((c : Thread nD τ).loc main_arg0)) (m ((c : Thread nD τ).loc main_arg1)))
    (m ((c : Thread nD τ).loc main_arg2)) (m ((c : Thread nD τ).loc main_arg4))
    (fun k => (m ((c : Thread nD τ).loc main_arg3) : S128.Idx → EReal) (ix1 k)) (fun k => (m ((c : Thread nD τ).loc main_arg5) : S128.Idx → EReal) (ix1 k))

/-- What the region finds is what was launched, the host operations before it read. -/
theorem found_eq (c : Dev nD) : found m c = result m c := by
  unfold found result
  rw [V_main_arg0, V_main_arg2, V_main_arg4, Cert.KernelIdeal.HostSide.agg_eq]
  have e1 : (fun k : Fin 128 => (V m c main_v14 : S1x128.Idx → EReal) (ix2 (0 : Fin 1) k))
      = fun k => (m ((c : Thread nD τ).loc main_arg3) : S128.Idx → EReal) (ix1 k) :=
    funext fun k => Cert.KernelIdeal.HostSide.bias1_apply m c k
  have e2 : (fun k : Fin 128 => (V m c main_v15 : S1x128.Idx → EReal) (ix2 (0 : Fin 1) k))
      = fun k => (m ((c : Thread nD τ).loc main_arg5) : S128.Idx → EReal) (ix1 k) :=
    funext fun k => Cert.KernelIdeal.HostSide.bias2_apply m c k
  rw [e1, e2]

/-- The kernel's run: the result array at the layer on the arguments, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((array_eq m c).trans (found_eq m c)), (h c).2⟩) (run_blocks m ρ)

end Cert.KernelIdeal.Blocks

end
-- ==== Proof.RefRow.lean ====
/-
  The reference's result, read at row `a` and column `q`.

  The reference forms `h = (1 + eps) * x + agg` over all 50000 rows (`agg` the neighbour sums, a gather followed by a
  scatter-add, kept here as one unopened term), multiplies by `W1`, adds the first bias spread over the rows, takes the maximum
  with zero, multiplies by `W2` and adds the second bias. Each product is, at an entry, the sum over the contracted
  coordinate; each spread bias is the bias at the entry's column. So the result is the layer of `Spec` on the 50000 rows.
-/
import proofs.«111403_j17635135718112_1_alg».proof.Proof.Gen.ReferenceIdeal.Read
import proofs.«111403_j17635135718112_1_alg».proof.Proof.Spec
import Idealize.ShloMosaic.Lib.ValueIdx

noncomputable section

namespace Cert.ReferenceIdeal.Row

open Cert.ReferenceIdeal Cert.ReferenceIdeal.Gen Cert.ReferenceIdeal.Read Idealize.ShloMosaic Idealize.ShloMosaic.ValueIdx

/-- The index functions of the two products and of the two spread biases, at an entry given by its coordinates. -/
theorem lidx22 (a : Fin 50000) (q k : Fin 128) : lidx_main_v22 (ix2 a q) k = ix2 a k :=
  funext fun d => Fin.ext (by match d with | ⟨0, _⟩ => rfl | ⟨1, _⟩ => rfl)
theorem ridx22 (a : Fin 50000) (q k : Fin 128) : ridx_main_v22 (ix2 a q) k = ix2 k q :=
  funext fun d => Fin.ext (by match d with | ⟨0, _⟩ => rfl | ⟨1, _⟩ => rfl)
theorem lidx17 (a : Fin 50000) (k l : Fin 128) : lidx_main_v17 (ix2 a k) l = ix2 a l :=
  funext fun d => Fin.ext (by match d with | ⟨0, _⟩ => rfl | ⟨1, _⟩ => rfl)
theorem ridx17 (a : Fin 50000) (k l : Fin 128) : ridx_main_v17 (ix2 a k) l = ix2 l k :=
  funext fun d => Fin.ext (by match d with | ⟨0, _⟩ => rfl | ⟨1, _⟩ => rfl)
theorem bias1_idx (a : Fin 50000) (k : Fin 128) : idx_main_v18 (idx_main_v19 (ix2 a k)) = ix1 k :=
  funext fun d => Fin.ext (by match d with | ⟨0, _⟩ => rfl)
theorem bias2_idx (a : Fin 50000) (q : Fin 128) : idx_main_v23 (idx_main_v24 (ix2 a q)) = ix1 q :=
  funext fun d => Fin.ext (by match d with | ⟨0, _⟩ => rfl)

/-- The reference's result at `(a, q)` is the layer on the 50000 rows, `agg` being the reference's own neighbour sums. -/
theorem result_apply (x0 : (⟨S50000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (a : Fin 50000) (q : Fin 128) :
    val_main_v25 (F := Ideal) x0 x1 x2 x3 x4 x5 (ix2 a q)
      = Cert.GinSpec.layer (A := 50000) x0 (val_main_v13 (F := Ideal) x0 x1) x2 x4 (fun k => x3 (ix1 k)) (fun k => x5 (ix1 k)) (ix2 a q) := by
  rw [val_main_v25_apply, val_main_v22_apply, val_main_v24_apply, val_main_v23_apply, bias2_idx]
  simp only [lidx22, ridx22, val_main_v21_apply, val_main_v20_apply, val_main_v17_apply, lidx17, ridx17, val_main_v19_apply,
    val_main_v18_apply, bias1_idx, val_main_v16_apply, val_main_v15_apply, val_main_v14_apply, val_main_cst_1_apply,
    val_main_call0_v0_apply, val_main_call0_cst_apply]
  rfl

/-- The reference's result is the layer on the 50000 rows. -/
theorem result_eq (x0 : (⟨S50000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v25 (F := Ideal) x0 x1 x2 x3 x4 x5
      = Cert.GinSpec.layer (A := 50000) x0 (val_main_v13 (F := Ideal) x0 x1) x2 x4 (fun k => x3 (ix1 k)) (fun k => x5 (ix1 k)) := by
  refine funext fun (i : S50000x128.Idx) => ?_
  obtain ⟨a, q, rfl⟩ : ∃ (a : Fin 50000) (q : Fin 128), i = ix2 a q := ⟨i 0, i 1, eq_ix2 i⟩
  exact result_apply x0 x1 x2 x3 x4 x5 a q

end Cert.ReferenceIdeal.Row

end
-- ==== Proof.lean ====
/-
  The kernel and the reference compute one function over the extended reals.

  Both programs first form the neighbour sums `agg` of the node features `x` along the edge list, by the same host
  operations in the same order. The reference then computes, over all 50000 rows at once,
  `max (((1 + eps) * x + agg) · W1 + b1) 0 · W2 + b2`; the kernel computes the same expression block by block, ten blocks of
  5000 rows, its two matrix products taking operands rounded to a 16-bit format — a rounding that is the identity on the
  extended reals. A row of the result depends on the same row of `x` and of `agg` only, so the ten blocks the kernel stores
  are the ten blocks of the reference's result (Proof/Blocks.lean, over Proof/KernelRow.lean and Proof/Spec.lean), and the
  reference's result is the same expression entry by entry (Proof/RefRow.lean). No law of arithmetic is used beyond the
  reading of a matrix product as a sum over the contracted coordinate, so the inputs' finiteness is not needed.
  The idealized kernel is the kernel's own text read over the extended reals: nothing was rewritten, and the
  preservation claim is trivial. The three frames are the generated runs.
-/
import proofs.«111403_j17635135718112_1_alg».proof.Defs
import proofs.«111403_j17635135718112_1_alg».proof.Proof.Gen.Kernel
import proofs.«111403_j17635135718112_1_alg».proof.Proof.Gen.Kernel.Skeleton
import proofs.«111403_j17635135718112_1_alg».proof.Proof.Gen.Kernel.Launch
import proofs.«111403_j17635135718112_1_alg».proof.Proof.Gen.Kernel.Points
import proofs.«111403_j17635135718112_1_alg».proof.Proof.Gen.Kernel.Frame
import proofs.«111403_j17635135718112_1_alg».proof.Proof.Gen.KernelIdeal
import proofs.«111403_j17635135718112_1_alg».proof.Proof.Gen.KernelIdeal.Skeleton
import proofs.«111403_j17635135718112_1_alg».proof.Proof.Gen.KernelIdeal.Launch
import proofs.«111403_j17635135718112_1_alg».proof.Proof.Gen.KernelIdeal.Points
import proofs.«111403_j17635135718112_1_alg».proof.Proof.Gen.KernelIdeal.Frame
import proofs.«111403_j17635135718112_1_alg».proof.Proof.Gen.ReferenceIdeal
import proofs.«111403_j17635135718112_1_alg».proof.Proof.Gen.KernelIdeal.Value
import proofs.«111403_j17635135718112_1_alg».proof.Proof.Gen.ReferenceIdeal.Run
import proofs.«111403_j17635135718112_1_alg».proof.Proof.Gen.ReferenceIdeal.Read
import proofs.«111403_j17635135718112_1_alg».proof.Proof.Gen.Pre_finite_inputs
import proofs.«111403_j17635135718112_1_alg».proof.Proof.Blocks
import proofs.«111403_j17635135718112_1_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the layer on the arguments in their result arrays. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.Row.result_eq]
  unfold Cert.KernelIdeal.Blocks.result
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
